-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S512x50 : Shape := ⟨2, ![512, 50]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel

variable [Facts]

def fn {F : FTy → Type} [FloatOps F] (main_arg0 : FVec F S512x4096 .f32) (main_arg1 : IVec S512x50 32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  main_v3
-- ==== Kernel.lean ====
abbrev S512x4096 : Shape := ⟨2, ![512, 4096]⟩
abbrev S512x50 : Shape := ⟨2, ![512, 50]⟩
abbrev S_ : Shape := ⟨0, ![]⟩
abbrev S512x50x1 : Shape := ⟨3, ![512, 50, 1]⟩
abbrev S1 : Shape := ⟨1, ![1]⟩
abbrev S1x1x1 : Shape := ⟨3, ![1, 1, 1]⟩
abbrev S2x8x128 : Shape := ⟨3, ![2, 8, 128]⟩
abbrev S256x4096 : Shape := ⟨2, ![256, 4096]⟩
abbrev S256x50 : Shape := ⟨2, ![256, 50]⟩
abbrev S1x8x128 : Shape := ⟨3, ![1, 8, 128]⟩
abbrev S256x1 : Shape := ⟨2, ![256, 1]⟩
abbrev S256 : Shape := ⟨1, ![256]⟩
abbrev S1x1 : Shape := ⟨2, ![1, 1]⟩

abbrev nBuf : Space → Nat
  | .hbm => 39
  | .vmem => 8
  | .smem => 0
  | _ => 0

abbrev bufTy : (tb : Table) → Fin (tcTables nBuf tb) → BufTy
  | .hbm, ⟨0, _⟩ => ⟨S512x4096, .f32⟩
  | .hbm, ⟨1, _⟩ => ⟨S512x50, .i32⟩
  | .hbm, ⟨2, _⟩ => ⟨S_, .i32⟩
  | .hbm, ⟨3, _⟩ => ⟨S512x50, .i32⟩
  | .hbm, ⟨4, _⟩ => ⟨S512x50, .i1⟩
  | .hbm, ⟨5, _⟩ => ⟨S_, .i32⟩
  | .hbm, ⟨6, _⟩ => ⟨S_, .i32⟩
  | .hbm, ⟨7, _⟩ => ⟨S512x50, .i32⟩
  | .hbm, ⟨8, _⟩ => ⟨S512x50, .i32⟩
  | .hbm, ⟨9, _⟩ => ⟨S_, .i32⟩
  | .hbm, ⟨10, _⟩ => ⟨S512x50, .i32⟩
  | .hbm, ⟨11, _⟩ => ⟨S512x50, .i1⟩
  | .hbm, ⟨12, _⟩ => ⟨S_, .i32⟩
  | .hbm, ⟨13, _⟩ => ⟨S512x50, .i32⟩
  | .hbm, ⟨14, _⟩ => ⟨S512x50, .i32⟩
  | .hbm, ⟨15, _⟩ => ⟨S512x50, .i32⟩
  | .hbm, ⟨16, _⟩ => ⟨S512x50x1, .i32⟩
  | .hbm, ⟨17, _⟩ => ⟨S1, .i32⟩
  | .hbm, ⟨18, _⟩ => ⟨S_, .i32⟩
  | .hbm, ⟨19, _⟩ => ⟨S512x50x1, .i32⟩
  | .hbm, ⟨20, _⟩ => ⟨S512x50x1, .i1⟩
  | .hbm, ⟨21, _⟩ => ⟨S1x1x1, .i32⟩
  | .hbm, ⟨22, _⟩ => ⟨S512x50x1, .i32⟩
  | .hbm, ⟨23, _⟩ => ⟨S512x50x1, .i1⟩
  | .hbm, ⟨24, _⟩ => ⟨S512x50x1, .i1⟩
  | .hbm, ⟨25, _⟩ => ⟨S_, .i1⟩
  | .hbm, ⟨26, _⟩ => ⟨S512x50, .i1⟩
  | .hbm, ⟨27, _⟩ => ⟨S512x50, .f32⟩
  | .hbm, ⟨28, _⟩ => ⟨S_, .f32⟩
  | .hbm, ⟨29, _⟩ => ⟨S512x50, .f32⟩
  | .hbm, ⟨30, _⟩ => ⟨S512x50, .f32⟩
  | .hbm, ⟨31, _⟩ => ⟨S512x50, .f32⟩
  | .hbm, ⟨32, _⟩ => ⟨S2x8x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x50, .f32⟩
  | .local _ .vmem, ⟨3, _⟩ => ⟨S256x50, .f32⟩
  | .local _ .vmem, ⟨4, _⟩ => ⟨S256x50, .f32⟩
  | .local _ .vmem, ⟨5, _⟩ => ⟨S256x50, .f32⟩
  | .local _ .vmem, ⟨6, _⟩ => ⟨S1x8x128, .f32⟩
  | .local _ .vmem, ⟨7, _⟩ => ⟨S1x8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_cst : Ref sig .tc := ⟨.hbm, 28, rfl⟩
abbrev main_call1_v14 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_cst : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x50 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x50 : S_.BroadcastsInDim S512x50 (![] : Fin 0 → Fin S512x50.rank)
  shapeCasts_S512x50_S512x50x1 : S512x50.ShapeCasts S512x50x1
  bcast_S_S512x50x1 : S_.BroadcastsInDim S512x50x1 (![] : Fin 0 → Fin S512x50x1.rank)
  bcast_S1_S1x1x1_2 : S1.BroadcastsInDim S1x1x1 (![2] : Fin 1 → Fin S1x1x1.rank)
  bcast_S1x1x1_S512x50x1_0_1_2 : S1x1x1.BroadcastsInDim S512x50x1 (![0, 1, 2] : Fin 3 → Fin S512x50x1.rank)
  reducesTo_S512x50x1_S512x50_d2 : S512x50x1.ReducesTo [2] S512x50
  h_S_ : 0 < S_.numel
  inb_S256x4096_S256x4096_0_0 : ∀ a, (![0, 0] : Fin 2 → Nat) a + S256x4096.size a ≤ S256x4096.size a
  h_S256x4096 : 0 < S256x4096.numel
  inb_S256x50_S256x50_0_0 : ∀ a, (![0, 0] : Fin 2 → Nat) a + S256x50.size a ≤ S256x50.size a
  h_S256x50 : 0 < S256x50.numel
  shapeCasts_S256x50_S256x50 : S256x50.ShapeCasts S256x50
  slices_S256x50_o0_0_S256x1 : S256x50.Slices ![0, 0] S256x1
  broadcasts_S256x1_S256x4096 : S256x1.Broadcasts S256x4096
  reduces_S256x4096_S256 : S256x4096.Reduces [1] S256
  shapeCasts_S256_S256x1 : S256.ShapeCasts S256x1
  slices_S256x50_o0_1_S256x1 : S256x50.Slices ![0, 1] S256x1
  slices_S256x50_o0_2_S256x1 : S256x50.Slices ![0, 2] S256x1
  slices_S256x50_o0_3_S256x1 : S256x50.Slices ![0, 3] S256x1
  slices_S256x50_o0_4_S256x1 : S256x50.Slices ![0, 4] S256x1
  slices_S256x50_o0_5_S256x1 : S256x50.Slices ![0, 5] S256x1
  slices_S256x50_o0_6_S256x1 : S256x50.Slices ![0, 6] S256x1
  slices_S256x50_o0_7_S256x1 : S256x50.Slices ![0, 7] S256x1
  slices_S256x50_o0_8_S256x1 : S256x50.Slices ![0, 8] S256x1
  slices_S256x50_o0_9_S256x1 : S256x50.Slices ![0, 9] S256x1
  slices_S256x50_o0_10_S256x1 : S256x50.Slices ![0, 10] S256x1
  slices_S256x50_o0_11_S256x1 : S256x50.Slices ![0, 11] S256x1
  slices_S256x50_o0_12_S256x1 : S256x50.Slices ![0, 12] S256x1
  slices_S256x50_o0_13_S256x1 : S256x50.Slices ![0, 13] S256x1
  slices_S256x50_o0_14_S256x1 : S256x50.Slices ![0, 14] S256x1
  slices_S256x50_o0_15_S256x1 : S256x50.Slices ![0, 15] S256x1
  slices_S256x50_o0_16_S256x1 : S256x50.Slices ![0, 16] S256x1
  slices_S256x50_o0_17_S256x1 : S256x50.Slices ![0, 17] S256x1
  slices_S256x50_o0_18_S256x1 : S256x50.Slices ![0, 18] S256x1
  slices_S256x50_o0_19_S256x1 : S256x50.Slices ![0, 19] S256x1
  slices_S256x50_o0_20_S256x1 : S256x50.Slices ![0, 20] S256x1
  slices_S256x50_o0_21_S256x1 : S256x50.Slices ![0, 21] S256x1
  slices_S256x50_o0_22_S256x1 : S256x50.Slices ![0, 22] S256x1
  slices_S256x50_o0_23_S256x1 : S256x50.Slices ![0, 23] S256x1
  slices_S256x50_o0_24_S256x1 : S256x50.Slices ![0, 24] S256x1
  slices_S256x50_o0_25_S256x1 : S256x50.Slices ![0, 25] S256x1
  slices_S256x50_o0_26_S256x1 : S256x50.Slices ![0, 26] S256x1
  slices_S256x50_o0_27_S256x1 : S256x50.Slices ![0, 27] S256x1
  slices_S256x50_o0_28_S256x1 : S256x50.Slices ![0, 28] S256x1
  slices_S256x50_o0_29_S256x1 : S256x50.Slices ![0, 29] S256x1
  slices_S256x50_o0_30_S256x1 : S256x50.Slices ![0, 30] S256x1
  slices_S256x50_o0_31_S256x1 : S256x50.Slices ![0, 31] S256x1
  slices_S256x50_o0_32_S256x1 : S256x50.Slices ![0, 32] S256x1
  slices_S256x50_o0_33_S256x1 : S256x50.Slices ![0, 33] S256x1
  slices_S256x50_o0_34_S256x1 : S256x50.Slices ![0, 34] S256x1
  slices_S256x50_o0_35_S256x1 : S256x50.Slices ![0, 35] S256x1
  slices_S256x50_o0_36_S256x1 : S256x50.Slices ![0, 36] S256x1
  slices_S256x50_o0_37_S256x1 : S256x50.Slices ![0, 37] S256x1
  slices_S256x50_o0_38_S256x1 : S256x50.Slices ![0, 38] S256x1
  slices_S256x50_o0_39_S256x1 : S256x50.Slices ![0, 39] S256x1
  slices_S256x50_o0_40_S256x1 : S256x50.Slices ![0, 40] S256x1
  slices_S256x50_o0_41_S256x1 : S256x50.Slices ![0, 41] S256x1
  slices_S256x50_o0_42_S256x1 : S256x50.Slices ![0, 42] S256x1
  slices_S256x50_o0_43_S256x1 : S256x50.Slices ![0, 43] S256x1
  slices_S256x50_o0_44_S256x1 : S256x50.Slices ![0, 44] S256x1
  slices_S256x50_o0_45_S256x1 : S256x50.Slices ![0, 45] S256x1
  slices_S256x50_o0_46_S256x1 : S256x50.Slices ![0, 46] S256x1
  slices_S256x50_o0_47_S256x1 : S256x50.Slices ![0, 47] S256x1
  slices_S256x50_o0_48_S256x1 : S256x50.Slices ![0, 48] S256x1
  slices_S256x50_o0_49_S256x1 : S256x50.Slices ![0, 49] S256x1
  reduces_S256x1_S1 : S256x1.Reduces [0] S1
  shapeCasts_S1_S1x1 : S1.ShapeCasts S1x1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S2x8x128_S_d0_1_2 : S2x8x128.ReducesTo [0, 1, 2] S_
  gather_S512x4096_S512x50x1_S512x50_n_1_0_0_1_2_11_wf : GatherDims.WF S512x4096 S512x50x1 S512x50 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S512x4096.size a
  hwx0_0 : ∀ i : grid0.Coords, EltTy.bits .f32 = 32 ∨ (Rect.block (s := S512x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x50.size a ≤ S512x50.size a
  hwx0_1 : ∀ i : grid0.Coords, EltTy.bits .f32 = 32 ∨ (Rect.block (s := S512x50) S256x50.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x50.size a ≤ S512x50.size a
  hwx0_2 : ∀ i : grid0.Coords, EltTy.bits .f32 = 32 ∨ (Rect.block (s := S512x50) S256x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def gather_S512x4096_S512x50x1_S512x50_n_1_0_0_1_2_11 : GatherDims S512x4096 S512x50x1 S512x50 where
  offsetDims := []
  collapsedSliceDims := [1]
  operandBatchingDims := [0]
  startIndicesBatchingDims := [0]
  startIndexMap := [1]
  indexVectorDim := 2
  sliceSizes := ![1, 1]
  wf := gather_S512x4096_S512x50x1_S512x50_n_1_0_0_1_2_11_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x50.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x4096 : Shape := ⟨2, ![512, 4096]⟩
abbrev S512x50 : Shape := ⟨2, ![512, 50]⟩
abbrev S_ : Shape := ⟨0, ![]⟩
abbrev S512x50x1 : Shape := ⟨3, ![512, 50, 1]⟩
abbrev S1 : Shape := ⟨1, ![1]⟩
abbrev S1x1x1 : Shape := ⟨3, ![1, 1, 1]⟩
abbrev S512x1x4096 : Shape := ⟨3, ![512, 1, 4096]⟩
abbrev S512x50x4096 : Shape := ⟨3, ![512, 50, 4096]⟩

abbrev nBuf : Space → Nat
  | .hbm => 55
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x50, .i32⟩
  | .hbm, ⟨2, _⟩ => ⟨S_, .i32⟩
  | .hbm, ⟨3, _⟩ => ⟨S512x50, .i32⟩
  | .hbm, ⟨4, _⟩ => ⟨S512x50, .i1⟩
  | .hbm, ⟨5, _⟩ => ⟨S_, .i32⟩
  | .hbm, ⟨6, _⟩ => ⟨S_, .i32⟩
  | .hbm, ⟨7, _⟩ => ⟨S512x50, .i32⟩
  | .hbm, ⟨8, _⟩ => ⟨S512x50, .i32⟩
  | .hbm, ⟨9, _⟩ => ⟨S_, .i32⟩
  | .hbm, ⟨10, _⟩ => ⟨S512x50, .i32⟩
  | .hbm, ⟨11, _⟩ => ⟨S512x50, .i1⟩
  | .hbm, ⟨12, _⟩ => ⟨S_, .i32⟩
  | .hbm, ⟨13, _⟩ => ⟨S512x50, .i32⟩
  | .hbm, ⟨14, _⟩ => ⟨S512x50, .i32⟩
  | .hbm, ⟨15, _⟩ => ⟨S512x50, .i32⟩
  | .hbm, ⟨16, _⟩ => ⟨S512x50x1, .i32⟩
  | .hbm, ⟨17, _⟩ => ⟨S1, .i32⟩
  | .hbm, ⟨18, _⟩ => ⟨S_, .i32⟩
  | .hbm, ⟨19, _⟩ => ⟨S512x50x1, .i32⟩
  | .hbm, ⟨20, _⟩ => ⟨S512x50x1, .i1⟩
  | .hbm, ⟨21, _⟩ => ⟨S1x1x1, .i32⟩
  | .hbm, ⟨22, _⟩ => ⟨S512x50x1, .i32⟩
  | .hbm, ⟨23, _⟩ => ⟨S512x50x1, .i1⟩
  | .hbm, ⟨24, _⟩ => ⟨S512x50x1, .i1⟩
  | .hbm, ⟨25, _⟩ => ⟨S_, .i1⟩
  | .hbm, ⟨26, _⟩ => ⟨S512x50, .i1⟩
  | .hbm, ⟨27, _⟩ => ⟨S512x50, .f32⟩
  | .hbm, ⟨28, _⟩ => ⟨S_, .f32⟩
  | .hbm, ⟨29, _⟩ => ⟨S512x50, .f32⟩
  | .hbm, ⟨30, _⟩ => ⟨S512x50, .f32⟩
  | .hbm, ⟨31, _⟩ => ⟨S512x50x1, .f32⟩
  | .hbm, ⟨32, _⟩ => ⟨S512x1x4096, .f32⟩
  | .hbm, ⟨33, _⟩ => ⟨S512x50x4096, .f32⟩
  | .hbm, ⟨34, _⟩ => ⟨S512x50x4096, .f32⟩
  | .hbm, ⟨35, _⟩ => ⟨S512x50x4096, .f32⟩
  | .hbm, ⟨36, _⟩ => ⟨S_, .f32⟩
  | .hbm, ⟨37, _⟩ => ⟨S512x50x4096, .f32⟩
  | .hbm, ⟨38, _⟩ => ⟨S512x50x4096, .f32⟩
  | .hbm, ⟨39, _⟩ => ⟨S_, .f32⟩
  | .hbm, ⟨40, _⟩ => ⟨S512x50x4096, .f32⟩
  | .hbm, ⟨41, _⟩ => ⟨S512x50x4096, .f32⟩
  | .hbm, ⟨42, _⟩ => ⟨S_, .f32⟩
  | .hbm, ⟨43, _⟩ => ⟨S512x50, .f32⟩
  | .hbm, ⟨44, _⟩ => ⟨S_, .f32⟩
  | .hbm, ⟨45, _⟩ => ⟨S512x50, .f32⟩
  | .hbm, ⟨46, _⟩ => ⟨S512x50, .f32⟩
  | .hbm, ⟨47, _⟩ => ⟨S_, .f32⟩
  | .hbm, ⟨48, _⟩ => ⟨S_, .f32⟩
  | .hbm, ⟨49, _⟩ => ⟨S512x50, .f32⟩
  | .hbm, ⟨50, _⟩ => ⟨S512x50, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_cst : Ref sig .tc := ⟨.hbm, 28, rfl⟩
abbrev main_call1_v14 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_call2_cst : Ref sig .tc := ⟨.hbm, 39, rfl⟩
abbrev main_call2_v0 : Ref sig .tc := ⟨.hbm, 40, rfl⟩
abbrev main_v11 : Ref sig .tc := ⟨.hbm, 41, rfl⟩
abbrev main_cst_1 : Ref sig .tc := ⟨.hbm, 42, rfl⟩
abbrev main_v12 : Ref sig .tc := ⟨.hbm, 43, rfl⟩
abbrev main_cst_2 : Ref sig .tc := ⟨.hbm, 44, rfl⟩
abbrev main_v13 : Ref sig .tc := ⟨.hbm, 45, rfl⟩
abbrev main_v14 : Ref sig .tc := ⟨.hbm, 46, rfl⟩
abbrev main_cst_3 : Ref sig .tc := ⟨.hbm, 47, rfl⟩
abbrev main_call3_v0 : Ref sig .tc := ⟨.hbm, 48, rfl⟩
abbrev main_call3_v1 : Ref sig .tc := ⟨.hbm, 49, rfl⟩
abbrev main_v15 : Ref sig .tc := ⟨.hbm, 50, rfl⟩
abbrev main_cst_4 : Ref sig .tc := ⟨.hbm, 51, rfl⟩
abbrev main_v16 : Ref sig .tc := ⟨.hbm, 52, rfl⟩
abbrev main_cst_5 : Ref sig .tc := ⟨.hbm, 53, rfl⟩
abbrev main_v17 : Ref sig .tc := ⟨.hbm, 54, rfl⟩

abbrev nD : Nat := 1
abbrev τ : Topo := Topo.v7x

variable {F : FTy → Type} [FloatOps F]

class Facts₀ : Prop where
  bcast_S_S512x50 : S_.BroadcastsInDim S512x50 (![] : Fin 0 → Fin S512x50.rank)
  shapeCasts_S512x50_S512x50x1 : S512x50.ShapeCasts S512x50x1
  bcast_S_S512x50x1 : S_.BroadcastsInDim S512x50x1 (![] : Fin 0 → Fin S512x50x1.rank)
  bcast_S1_S1x1x1_2 : S1.BroadcastsInDim S1x1x1 (![2] : Fin 1 → Fin S1x1x1.rank)
  bcast_S1x1x1_S512x50x1_0_1_2 : S1x1x1.BroadcastsInDim S512x50x1 (![0, 1, 2] : Fin 3 → Fin S512x50x1.rank)
  reducesTo_S512x50x1_S512x50_d2 : S512x50x1.ReducesTo [2] S512x50
  h_S_ : 0 < S_.numel
  bcast_S512x50_S512x50x1_0_1 : S512x50.BroadcastsInDim S512x50x1 (![0, 1] : Fin 2 → Fin S512x50x1.rank)
  bcast_S512x4096_S512x1x4096_0_2 : S512x4096.BroadcastsInDim S512x1x4096 (![0, 2] : Fin 2 → Fin S512x1x4096.rank)
  bcast_S512x50x1_S512x50x4096_0_1_2 : S512x50x1.BroadcastsInDim S512x50x4096 (![0, 1, 2] : Fin 3 → Fin S512x50x4096.rank)
  bcast_S512x1x4096_S512x50x4096_0_1_2 : S512x1x4096.BroadcastsInDim S512x50x4096 (![0, 1, 2] : Fin 3 → Fin S512x50x4096.rank)
  bcast_S_S512x50x4096 : S_.BroadcastsInDim S512x50x4096 (![] : Fin 0 → Fin S512x50x4096.rank)
  reducesTo_S512x50x4096_S512x50_d2 : S512x50x4096.ReducesTo [2] S512x50
  reducesTo_S512x50_S_d0_1 : S512x50.ReducesTo [0, 1] S_
  gather_S512x4096_S512x50x1_S512x50_n_1_0_0_1_2_11_wf : GatherDims.WF S512x4096 S512x50x1 S512x50 [] [1] [0] [1] [0] 2 ![1, 1]

variable [Facts₀]

def gather_S512x4096_S512x50x1_S512x50_n_1_0_0_1_2_11 : GatherDims S512x4096 S512x50x1 S512x50 where
  offsetDims := []
  collapsedSliceDims := [1]
  operandBatchingDims := [0]
  startIndicesBatchingDims := [0]
  startIndexMap := [1]
  indexVectorDim := 2
  sliceSizes := ![1, 1]
  wf := gather_S512x4096_S512x50x1_S512x50_n_1_0_0_1_2_11_wf

class Facts : Prop extends Facts₀ where

variable [Facts]
-- ==== Proof.MarginBody.lean ====
/-
  The kernel body's arithmetic as a recurrence over the labels.

  The body handles the 50 labels of a block of 256 rows one after the other: label k takes column k of the block
  of 1 − t, spreads it along the 4096 classes, adds the scores, clips at zero, sums over the classes, subtracts 1,
  multiplies by column k of the validity block, and adds the resulting [256, 1] column onto the running column,
  which starts at zero. `labelColumn` is one label's column, `runColumn n` the running column after n labels; the
  body's 50 unrolled copies are `runColumn 50`.
-/
import proofs.«170645_j73014444032082_2_alg».proof.Proof.Gen.KernelIdeal.Frame

noncomputable section

namespace Cert.KernelIdeal.Hand

open Idealize.ShloMosaic Idealize.SL.Sem Cert.KernelIdeal Cert.KernelIdeal.Gen

variable {F : FTy → Type} [FloatOps F]

/-- Column k of a [256, 50] block is a [256, 1] block of it. -/
theorem col_slices (k : ℕ) (hk : k < 50) : S256x50.Slices ![0, k] S256x1 :=
  ⟨rfl, fun a => by
    match a with
    | ⟨0, _⟩ => exact Nat.le_refl 256
    | ⟨1, _⟩ => exact hk⟩

/-- Label k's column: validity times (the clipped margins summed over the classes, less one). `x` is the block of
    scores, `v` the validity block, `u` the block of 1 − t. -/
def labelColumn (k : ℕ) (hk : k < 50) (x : Vec F S256x4096 .f32) (v u : FVec F S256x50 .f32) : FVec F S256x1 .f32 :=
  mulf (extractStridedSlice S256x1 ![0, k] v (col_slices k hk))
    (subf
      (shapeCast S256x1
        (multiReduction .add [1] S256
          (maximumf
            (addf (broadcastTo S256x4096 (extractStridedSlice S256x1 ![0, k] u (col_slices k hk)) broadcasts_S256x1_S256x4096) x)
            (broadcast S256x4096 (Scalar.ofBits .f32 0x00000000#32)))
          0x00000000#32 reduces_S256x4096_S256 (.inl rfl) rfl)
        shapeCasts_S256_S256x1)
      (broadcast S256x1 (Scalar.ofBits .f32 0x3F800000#32)))

/-- The running column after the first n labels. -/
def runColumn (x : Vec F S256x4096 .f32) (v u : FVec F S256x50 .f32) : (n : ℕ) → n ≤ 50 → FVec F S256x1 .f32
  | 0, _ => broadcast S256x1 (Scalar.ofBits .f32 0x00000000#32)
  | n + 1, h => addf (runColumn x v u n (Nat.le_of_succ_le h)) (labelColumn n h x v u)

set_option maxRecDepth 65536 in
/-- What the body leaves in the output block is the block total of `runColumn 50`. -/
theorem out_eq (x0 : Vec F S256x4096 .f32) (x1 x2 : Vec F S256x50 .f32) :
    out0_3 x0 x1 x2
      = View.canon [⟨r0_2, k0_pay1 (runColumn (View.ld x0 r0_0) (k0_pay2 (View.ld x2 r0_1)) (k0_pay3 (View.ld x1 r0_1)) 50 (Nat.le_refl 50))⟩] :=
  rfl

end Cert.KernelIdeal.Hand

end
-- ==== Proof.LibBlockSum.lean ====
/-
  A finite sum over `m · n` consecutive positions, split into `m` blocks of `n`: for any function `f`
  of the natural numbers with values in a commutative additive monoid,
  `Σ_{i < m·n} f i = Σ_{t < m} Σ_{r < n} f (n·t + r)` — over `Finset.range` (`sum_range_blocks`) and
  with the outer left side and the inner right side indexed by `Fin` (`sum_fin_blocks`). A grid of
  `m` row blocks of `n` rows that accumulates one block per step ends at the sum over all `m·n` rows.
-/
import Idealize.ShloMosaic.Lib.ValueIdx

namespace AnchorGcn

/-- `Σ_{i < m·n} f i = Σ_{t < m} Σ_{r < n} f (n·t + r)`, by induction on the number of blocks. -/
theorem sum_range_blocks {M : Type*} [AddCommMonoid M] (f : ℕ → M) (n : ℕ) : ∀ m : ℕ,
    ∑ i ∈ Finset.range (m * n), f i = ∑ t ∈ Finset.range m, ∑ r ∈ Finset.range n, f (n * t + r)
  | 0 => by rw [Nat.zero_mul, Finset.sum_range_zero, Finset.sum_range_zero]
  | m + 1 => by
    rw [Nat.succ_mul, Finset.sum_range_add, sum_range_blocks f n m, Finset.sum_range_succ, Nat.mul_comm m n]

/-- The same with the positions and the rows of a block as `Fin` indices:
    `Σ_{i : Fin (m·n)} f i = Σ_{t < m} Σ_{r : Fin n} f (n·t + r)`. -/
theorem sum_fin_blocks {M : Type*} [AddCommMonoid M] (f : ℕ → M) (m n : ℕ) :
    ∑ i : Fin (m * n), f i.val = ∑ t ∈ Finset.range m, ∑ r : Fin n, f (n * t + r.val) := by
  rw [Fin.sum_univ_eq_sum_range f (m * n), sum_range_blocks f n m]
  exact Finset.sum_congr rfl fun t _ => (Fin.sum_univ_eq_sum_range (fun r => f (n * t + r)) n).symm

end AnchorGcn
-- ==== Proof.LibTileMean.lean ====
/-
  Copies of one extended real, added and averaged; and a sum over a rank-3 index set.

  On the extended reals n + 1 copies of S added are (n + 1) · S — +∞ and −∞ stay themselves, a real r gives (n + 1) r —
  and dividing that sum by n + 1 gives S back for EVERY extended real S, the infinities included: a value repeated over
  a tile, summed over the tile and divided by the tile's size is the value. A sum over the index set of a rank-3
  shape is the triple sum over its coordinates (`sum_idx3`, beside the library's `sum_idx2`).
-/
import Idealize.ShloMosaic.PureOps.Ideal
import Idealize.ShloMosaic.Lib.ValueIdx

noncomputable section

open scoped BigOperators

namespace TileMean

open Idealize.ShloMosaic Idealize.ShloMosaic.ValueIdx

/-- n + 1 copies of +∞ added are +∞. -/
theorem succ_nsmul_top : ∀ n : ℕ, (n + 1) • (⊤ : EReal) = ⊤
  | 0 => one_nsmul _
  | n + 1 => by rw [succ_nsmul, succ_nsmul_top n]; rfl

/-- n + 1 copies of −∞ added are −∞. -/
theorem succ_nsmul_bot : ∀ n : ℕ, (n + 1) • (⊥ : EReal) = ⊥
  | 0 => one_nsmul _
  | n + 1 => by rw [succ_nsmul, succ_nsmul_bot n]; rfl

/-- n copies of a real r added are the real n · r. -/
theorem coe_nsmul (r : ℝ) : ∀ n : ℕ, n • (r : EReal) = ((n * r : ℝ) : EReal)
  | 0 => by rw [zero_nsmul, Nat.cast_zero, zero_mul, EReal.coe_zero]
  | n + 1 => by rw [succ_nsmul, coe_nsmul r n, ← EReal.coe_add, Nat.cast_succ, add_mul, one_mul]

/-- n + 1 copies of S added and the sum divided by n + 1 is S, for every extended real S. -/
theorem div_succ_nsmul (n : ℕ) (S : EReal) : Ideal.div ((n + 1) • S) (((n + 1 : ℕ) : ℝ) : EReal) = S := by
  have hn : (((n + 1 : ℕ) : ℝ)) ≠ 0 := Nat.cast_ne_zero.mpr (Nat.succ_ne_zero n)
  have hp : (0 : ℝ) < 1 / ((n + 1 : ℕ) : ℝ) := one_div_pos.mpr (Nat.cast_pos.mpr (Nat.succ_pos n))
  rw [Ideal.div_coe hn]
  induction S using EReal.rec with
  | bot => rw [succ_nsmul_bot n]; exact EReal.bot_mul_coe_of_pos hp
  | top => rw [succ_nsmul_top n]; exact EReal.top_mul_coe_of_pos hp
  | coe r => rw [coe_nsmul, ← EReal.coe_mul]; exact congrArg _ (by field_simp)

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end TileMean

end
-- ==== Proof.MarginLaw.lean ====
/-
  The multi-label margin loss on the extended reals, in its two arrangements.

  For a row of scores x (every entry a real number), a target score t (any extended real) and a validity bit v, one
  label contributes  v · (Σ_j max(1 − t + x_j, 0) − 1).  One arrangement forms the hinge argument as (1 − t) + x_j,
  masks by multiplying with the bit read as 0 or 1, and adds the labels of a row one after the other onto a zero; the
  other forms 1 − (t − x_j), masks by a selection against zero and starts its sum over j from a zero. The two agree
  label by label: with x_j real, −(t − x_j) = −t + x_j whatever t is, and 1 · s = s, 0 · s = 0 for every extended
  real s. Nothing is assumed of t, so an out-of-range target, which reads as −∞, is covered.

  The totals: one arrangement sums each block of rows into one number T_b, repeats it over an 8 × 128 tile, sums the
  tiles of all blocks and divides by 1024; the sum of 1024 copies of S is 1024 · S, and (1024 · S) / 1024 = S for
  every extended real S, the infinities included (LibTileMean.lean). The rows of the two blocks are all the rows
  (LibBlockSum.lean).
-/
import Idealize.ShloMosaic.PureOps.Ideal
import Idealize.ShloMosaic.Lib.ValueIdx
import proofs.«170645_j73014444032082_2_alg».proof.Proof.LibBlockSum
import proofs.«170645_j73014444032082_2_alg».proof.Proof.LibTileMean

noncomputable section

open scoped BigOperators

namespace Margin

open Idealize.ShloMosaic Idealize.ShloMosaic.ValueIdx

/-! ## One label -/

/-- With x real, (o − t) + x = o − (t − x) for all extended reals o and t. -/
theorem shift_eq (o t : EReal) (r : ℝ) : (o - t) + (r : EReal) = o - (t - (r : EReal)) := by
  rw [sub_eq_add_neg, sub_eq_add_neg, sub_eq_add_neg,
    EReal.neg_add (Or.inr (by rw [← EReal.coe_neg]; exact EReal.coe_ne_top _))
      (Or.inr (by rw [← EReal.coe_neg]; exact EReal.coe_ne_bot _)),
    sub_eq_add_neg, neg_neg, add_assoc]

/-- The hinge total of one label over a row, less the target's own term, the first arrangement. -/
def hingeK {C : ℕ} (one zero t : EReal) (x : Fin C → EReal) : EReal :=
  (∑ j : Fin C, max ((one - t) + x j) zero) - one

/-- The same, the second arrangement: the sum over j starts from a zero. -/
def hingeR {C : ℕ} (one zero t : EReal) (x : Fin C → EReal) : EReal :=
  (zero + ∑ j : Fin C, max (one - (t - x j)) zero) - one

/-- They are one number when the row's entries are real and the zero is 0. -/
theorem hinge_eq {C : ℕ} (one t : EReal) (x : Fin C → EReal) (hx : ∀ j, ∃ r : ℝ, x j = (r : EReal)) :
    hingeK one 0 t x = hingeR one 0 t x := by
  unfold hingeK hingeR
  rw [zero_add]
  refine congrArg (· - one) (Finset.sum_congr rfl fun j _ => ?_)
  obtain ⟨r, hr⟩ := hx j
  rw [hr, shift_eq]

/-- Masking by the bit read as a number is the selection against 0. -/
theorem mask_eq (v : BitVec 1) (s : EReal) : ((v.toNat : ℝ) : EReal) * s = Scalar.select v s 0 := by
  rcases BitVec.eq_zero_or_eq_one v with h | h <;> subst h
  · show ((0 : ℕ) : ℝ) * s = if (0#1 : BitVec 1) = 1 then s else 0
    rw [if_neg (by decide), Nat.cast_zero, EReal.coe_zero, zero_mul]
  · show ((1 : ℕ) : ℝ) * s = if (1#1 : BitVec 1) = 1 then s else 0
    rw [if_pos (by decide), Nat.cast_one, EReal.coe_one, one_mul]

/-! ## A row: the labels added one after the other onto a start value -/

/-- The running total after the first n labels. -/
def runTotal (z : EReal) (c : ℕ → EReal) : ℕ → EReal
  | 0 => z
  | n + 1 => runTotal z c n + c n

theorem runTotal_eq (z : EReal) (c : ℕ → EReal) : ∀ n, runTotal z c n = z + ∑ k ∈ Finset.range n, c k
  | 0 => by rw [Finset.sum_range_zero, add_zero]; rfl
  | n + 1 => by rw [Finset.sum_range_succ, ← add_assoc, ← runTotal_eq z c n]; rfl

/-! ## The totals -/

/-- 1024 copies of S added and the sum divided by 1024 is S, for every extended real S. -/
theorem div_nsmul_1024 (S : EReal) : Ideal.div (1024 • S) ((1024 : ℝ) : EReal) = S := by
  have h := TileMean.div_succ_nsmul 1023 S
  have e : (((1023 + 1 : ℕ) : ℝ)) = 1024 := by norm_num
  rw [e] at h
  exact h

/-- Two block totals, each repeated over an 8 × 128 tile: the sum of all the tiles' entries, divided by 1024, is the
    sum of the two totals. -/
theorem tiles_total (T : Fin 2 → EReal) :
    Ideal.div (0 + ∑ i : (⟨3, ![2, 8, 128]⟩ : Shape).Idx, T (i 0)) ((1024 : ℝ) : EReal) = T 0 + T 1 := by
  rw [zero_add, TileMean.sum_idx3]
  have h : ∀ a : Fin 2, (∑ b : Fin 8, ∑ c : Fin 128, T ((ix3 a b c : (⟨3, ![2, 8, 128]⟩ : Shape).Idx) 0)) = 1024 • T a := by
    intro a
    show (∑ _b : Fin 8, ∑ _c : Fin 128, T a) = 1024 • T a
    simp only [Finset.sum_const, Finset.card_univ, Fintype.card_fin, smul_smul]
    rfl
  rw [Finset.sum_congr rfl fun a _ => h a, ← Finset.smul_sum, Fin.sum_univ_two, div_nsmul_1024]

/-! ## A row, and the whole loss -/

/-- A row's total, the first arrangement: the labels' masked hinge totals added one after the other from `zero`. -/
def rowK {K C : ℕ} (one zero : EReal) (x : Fin C → EReal) (t v : Fin K → EReal) : EReal :=
  runTotal zero (fun k => if hk : k < K then v ⟨k, hk⟩ * hingeK one zero (t ⟨k, hk⟩) x else 0) K

theorem rowK_eq {K C : ℕ} (one : EReal) (x : Fin C → EReal) (t v : Fin K → EReal) :
    rowK one 0 x t v = ∑ k : Fin K, v k * hingeK one 0 (t k) x := by
  unfold rowK
  rw [runTotal_eq, zero_add, Finset.sum_range]
  exact Finset.sum_congr rfl fun k _ => dif_pos k.isLt

/-- Row r of block b of 256 rows. -/
def row (b : Fin 2) (r : Fin 256) : Fin 512 := ⟨256 * b.val + r.val, by have := b.isLt; have := r.isLt; omega⟩

/-- The rows of the two blocks are all 512 rows. -/
theorem sum_rows (R : Fin 512 → EReal) : (∑ r : Fin 256, R (row 0 r)) + (∑ r : Fin 256, R (row 1 r)) = ∑ b : Fin 512, R b := by
  have h := AnchorGcn.sum_fin_blocks (fun n => if h : n < 512 then R ⟨n, h⟩ else 0) 2 256
  rw [Finset.sum_range_succ, Finset.sum_range_succ, Finset.sum_range_zero, zero_add] at h
  have e : ∀ b : Fin 2, (∑ r : Fin 256, R (row b r))
      = ∑ r : Fin 256, (fun n => if h : n < 512 then R ⟨n, h⟩ else 0) (256 * b.val + r.val) := fun b =>
    Finset.sum_congr rfl fun r _ => by
      have hlt : 256 * b.val + r.val < 512 := (row b r).isLt
      show R ⟨256 * b.val + r.val, hlt⟩ = if h : 256 * b.val + r.val < 512 then R ⟨256 * b.val + r.val, h⟩ else 0
      rw [dif_pos hlt]
  rw [e 0, e 1]
  refine h.symm.trans (Finset.sum_congr rfl fun b _ => ?_)
  exact dif_pos b.isLt

/-- The f32 pattern of 1024.0 denotes 1024. -/
theorem ofBits_1024 : Ideal.ofBits .f32 0x44800000#32 = ((1024 : ℝ) : EReal) := by
  simp [Ideal.ofBits, Ideal.ieee, -EReal.coe_mul]; norm_num

/-- THE LAW. The loss by blocks — per block of 256 rows the rows' totals (labels added one after the other, masked by
    multiplication) summed, the block totals repeated over 8 × 128 tiles, everything summed and divided by 1024 — is
    the loss label by label (masked by selection, the hinge argument formed as 1 − (t − x)), each then divided by the
    number of classes; the scores are real, the targets' scores any extended reals. -/
theorem loss_eq (one c : EReal) (x : Fin 512 → Fin 4096 → EReal) (hx : ∀ b j, ∃ r : ℝ, x b j = (r : EReal))
    (t : Fin 512 → Fin 50 → EReal) (w : Fin 512 → Fin 50 → BitVec 1) :
    Ideal.div (Ideal.div (0 + ∑ i : (⟨3, ![2, 8, 128]⟩ : Shape).Idx,
        ∑ r : Fin 256, rowK one 0 (x (row (i 0) r)) (t (row (i 0) r)) (fun k => (((w (row (i 0) r) k).toNat : ℝ) : EReal)))
        ((1024 : ℝ) : EReal)) c
      = Ideal.div (0 + ∑ i : (⟨2, ![512, 50]⟩ : Shape).Idx,
          Scalar.select (w (i 0) (i 1)) (hingeR one 0 (t (i 0) (i 1)) (x (i 0))) 0) c := by
  rw [tiles_total (fun b => ∑ r : Fin 256, rowK one 0 (x (row b r)) (t (row b r)) (fun k => (((w (row b r) k).toNat : ℝ) : EReal))),
    sum_rows (fun b => rowK one 0 (x b) (t b) (fun k => (((w b k).toNat : ℝ) : EReal))), zero_add, sum_idx2]
  refine congrArg (Ideal.div · c) (Finset.sum_congr rfl fun b _ => ?_)
  rw [rowK_eq]
  refine Finset.sum_congr rfl fun k _ => ?_
  show _ = Scalar.select (w b k) (hingeR one 0 (t b k) (x b)) 0
  rw [mask_eq, hinge_eq one (t b k) (x b) (hx b)]

/-- The same law with the three arrays given on their index sets: scores X [512, 4096], target scores T and validity
    bits W [512, 50]. -/
theorem loss_eq_arrays (one c : EReal) (X : (⟨2, ![512, 4096]⟩ : Shape).Idx → EReal) (hX : ∀ i, ∃ r : ℝ, X i = (r : EReal))
    (T : (⟨2, ![512, 50]⟩ : Shape).Idx → EReal) (W : (⟨2, ![512, 50]⟩ : Shape).Idx → BitVec 1) :
    Ideal.div (Ideal.div (0 + ∑ i : (⟨3, ![2, 8, 128]⟩ : Shape).Idx,
        ∑ r : Fin 256, rowK one 0 (fun j : Fin 4096 => X (ix2 (row (i 0) r) j)) (fun k : Fin 50 => T (ix2 (row (i 0) r) k))
          (fun k : Fin 50 => (((W (ix2 (row (i 0) r) k)).toNat : ℝ) : EReal)))
        ((1024 : ℝ) : EReal)) c
      = Ideal.div (0 + ∑ i : (⟨2, ![512, 50]⟩ : Shape).Idx,
          Scalar.select (W i) (hingeR one 0 (T i) (fun j : Fin 4096 => X (ix2 (i 0) j))) 0) c := by
  refine (loss_eq one c (fun b j => X (ix2 b j)) (fun b j => hX _) (fun b k => T (ix2 b k)) (fun b k => W (ix2 b k))).trans ?_
  refine congrArg (fun s => Ideal.div (0 + s) c) (Finset.sum_congr rfl fun i _ => ?_)
  exact congrArg (fun y => Scalar.select (W y) (hingeR one 0 (T y) fun j : Fin 4096 => X (ix2 (i 0) j)) 0) (eq_ix2 i).symm

end Margin

end
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.MarginBodyRead.lean ====
/-
  The kernel body read at an index, on the extended reals.

  One label's column at row r is  v(r,k) · (Σ_j max(u(r,k) + x(r,j), 0) − 1);  the running column at row r is the
  running total of these over the labels; the block's result, at every position of its 8 × 128 tile, is the sum of
  the running column after all 50 labels over the block's 256 rows. With u = 1 − t this is the block total of the
  first arrangement of MarginLaw.lean.
-/
import proofs.«170645_j73014444032082_2_alg».proof.Proof.MarginBody
import proofs.«170645_j73014444032082_2_alg».proof.Proof.MarginLaw
import proofs.«170645_j73014444032082_2_alg».proof.Proof.LibKeepdims
import Idealize.ShloMosaic.Lib.Pipeline.Value

noncomputable section

namespace Cert.KernelIdeal.Hand

open Idealize.ShloMosaic Idealize.ShloMosaic.ValueIdx Idealize.SL.Sem Cert.KernelIdeal Cert.KernelIdeal.Gen

/-- The two float literals of the body, as extended reals. -/
abbrev zeroW : EReal := Ideal.ofBits .f32 0x00000000#32
abbrev oneW : EReal := Ideal.ofBits .f32 0x3F800000#32

/-- Column k of a [256, 50] block at row r is the block's entry (r, k). -/
theorem column_apply {α : Type} (k : ℕ) (hk : k < 50) (w : S256x50.Idx → α) (r : Fin 256) (q : Fin 1) :
    extractStridedSlice S256x1 ![0, k] w (col_slices k hk) (ix2 r q) = w (ix2 r (⟨k, hk⟩ : Fin 50)) :=
  extractStridedSlice_apply _ w _ (ix2 r q) (ix2 r (⟨k, hk⟩ : Fin 50)) fun a => by
    match a with
    | ⟨0, _⟩ => show r.val = 0 + r.val; omega
    | ⟨1, _⟩ => show k = k + q.val; omega

/-- One label's column at row r. -/
theorem labelColumn_apply (k : ℕ) (hk : k < 50) (x : Vec Ideal S256x4096 .f32) (v u : FVec Ideal S256x50 .f32)
    (r : Fin 256) (q : Fin 1) :
    labelColumn k hk x v u (ix2 r q)
      = v (ix2 r (⟨k, hk⟩ : Fin 50)) * ((∑ j : Fin 4096, max (u (ix2 r (⟨k, hk⟩ : Fin 50)) + x (ix2 r j)) zeroW) - oneW) := by
  unfold labelColumn
  show extractStridedSlice S256x1 ![0, k] v (col_slices k hk) (ix2 r q)
      * (shapeCast S256x1 (multiReduction .add [1] S256 _ 0x00000000#32 reduces_S256x4096_S256 (.inl rfl) rfl) shapeCasts_S256_S256x1 (ix2 r q) - oneW) = _
  rw [column_apply]
  refine congrArg (fun s => v (ix2 r (⟨k, hk⟩ : Fin 50)) * (s - oneW)) ?_
  refine (Keepdims.rowSumKeep_apply _ _ _ _ _ _ r q).trans (Finset.sum_congr rfl fun j _ => ?_)
  show max (broadcastTo S256x4096 (extractStridedSlice S256x1 ![0, k] u (col_slices k hk)) broadcasts_S256x1_S256x4096 (ix2 r j) + x (ix2 r j)) zeroW = _
  rw [Keepdims.broadcastTo_a1_ab_apply, column_apply]

/-- The running column at row r is the running total of the labels' entries. -/
theorem runColumn_apply (x : Vec Ideal S256x4096 .f32) (v u : FVec Ideal S256x50 .f32) (r : Fin 256) (q : Fin 1) :
    ∀ (n : ℕ) (h : n ≤ 50), runColumn x v u n h (ix2 r q)
      = Margin.runTotal zeroW (fun k => if hk : k < 50 then
          v (ix2 r (⟨k, hk⟩ : Fin 50)) * ((∑ j : Fin 4096, max (u (ix2 r (⟨k, hk⟩ : Fin 50)) + x (ix2 r j)) zeroW) - oneW) else 0) n
  | 0, _ => rfl
  | n + 1, h => by
    show runColumn x v u n (Nat.le_of_succ_le h) (ix2 r q) + labelColumn n h x v u (ix2 r q) = Margin.runTotal _ _ n + _
    rw [runColumn_apply x v u r q n (Nat.le_of_succ_le h), labelColumn_apply]
    beta_reduce
    rw [dif_pos (show n < 50 from h)]

/-- The block's result: at every position of the tile, the sum of the column over the block's rows. -/
theorem blockSum_apply (w : FVec Ideal S256x1 .f32) (j : S1x8x128.Idx) :
    k0_pay1 w j = ∑ r : Fin 256, w (ix2 r (0 : Fin 1)) := by
  unfold k0_pay1
  refine (broadcastTo_apply _ _ j (ix3 (0 : Fin 1) (0 : Fin 1) (0 : Fin 1)) (fun a => by
    match a with
    | ⟨0, _⟩ => rfl
    | ⟨1, _⟩ => rfl
    | ⟨2, _⟩ => rfl)).trans ?_
  refine (shapeCast_apply _ _ _ (ix2 (0 : Fin 1) (0 : Fin 1)) rfl).trans ?_
  refine (shapeCast_apply _ _ _ (ix1 (0 : Fin 1)) rfl).trans ?_
  refine (Ideal.multiReduction_add_single w 0x00000000#32 reduces_S256x1_S1 (.inl rfl) rfl (ix1 (0 : Fin 1))).trans ?_
  show ∑ r : Fin 256, w (reduces_S256x1_S1.lift (ix1 (0 : Fin 1)) r) = _
  refine Finset.sum_congr rfl fun r _ => congrArg w (funext fun d => Fin.ext ?_)
  match d with
  | ⟨0, _⟩ => rfl
  | ⟨1, _⟩ => rfl

/-- The validity block passes through its cast unchanged; the block of 1 − t at (r, k). -/
theorem pay2_eq (x2 : Vec Ideal S256x50 .f32) : k0_pay2 x2 = x2 := shapeCast_self _ _
theorem pay3_apply (x1 : Vec Ideal S256x50 .f32) (i : S256x50.Idx) : k0_pay3 x1 i = oneW - x1 i := by
  unfold k0_pay3
  show oneW - shapeCast S256x50 x1 shapeCasts_S256x50_S256x50 i = _
  rw [shapeCast_self]

/-- THE BLOCK. From the three input blocks — scores x0, target scores x1, validity x2 — the body's result at every
    position of the tile is the sum over the block's rows of the row totals, first arrangement. -/
theorem block_apply (x0 : Vec Ideal S256x4096 .f32) (x1 x2 : Vec Ideal S256x50 .f32) (j : S1x8x128.Idx) :
    k0_pay1 (runColumn x0 (k0_pay2 x2) (k0_pay3 x1) 50 (Nat.le_refl 50)) j
      = ∑ r : Fin 256, Margin.rowK oneW zeroW (fun c : Fin 4096 => x0 (ix2 r c)) (fun k : Fin 50 => x1 (ix2 r k)) (fun k : Fin 50 => x2 (ix2 r k)) := by
  rw [blockSum_apply]
  refine Finset.sum_congr rfl fun r _ => ?_
  rw [runColumn_apply, pay2_eq]
  unfold Margin.rowK Margin.hingeK
  refine congrArg (fun f => Margin.runTotal zeroW f 50) (funext fun k => ?_)
  by_cases hk : k < 50
  · rw [dif_pos hk, dif_pos hk, pay3_apply]
  · rw [dif_neg hk, dif_neg hk]

end Cert.KernelIdeal.Hand

end
-- ==== Proof.MarginKernelValue.lean ====
/-
  The kernel's program read as a value.

  Each of the two grid points handles a block of 256 rows: it is handed rows 256 b … 256 b + 255 of the scores, of the
  target scores and of the validity array, and writes its block total to every position of tile b of the [2, 8, 128]
  result. So the result array is, at (b, p, q), the sum over the block's rows of the row totals (`tileArray`). The
  host then sums the whole array from zero, divides by 1024 and by 4096.
-/
import proofs.«170645_j73014444032082_2_alg».proof.Proof.Gen.KernelIdeal.Frame
import proofs.«170645_j73014444032082_2_alg».proof.Proof.MarginBodyRead
import Idealize.ShloMosaic.Lib.Pipeline.Value
import Idealize.ShloMosaic.Lib.Tactic
import Idealize.ShloMosaic.Lib.StableHlo.Run

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the two grid points: every window's block index on the row axis is the point's
    number, and 0 on the other axes. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Block t of the scores is rows 256 t … 256 t + 255 of the array the region finds. -/
theorem iblk0_apply (c : Dev nD) (t : Fin cfg0.N) (y : S256x4096.Idx) (k : S512x4096.Idx)
    (hk0 : (k 0).val = 256 * t.val + (y 0).val) (hk1 : (k 1).val = (y 1).val) :
    (iblk m c 0 t : Vec Ideal S256x4096 .f32) y = (V m c main_arg0 : S512x4096.Idx → EReal) k := by
  obtain ⟨e0, e1, -⟩ := idx_facts t
  unfold iblk
  rw [View.read_apply]
  show (V m c main_arg0 : S512x4096.Idx → EReal) _ = (V m c main_arg0 : S512x4096.Idx → EReal) k
  refine congrArg (V m c main_arg0 : S512x4096.Idx → EReal) (funext fun a => Fin.ext ?_)
  match a with
  | ⟨0, _⟩ => show win0_0.index t (0 : Fin 2) * 256 + 1 * (y 0).val = (k 0).val; rw [e0, hk0]; omega
  | ⟨1, _⟩ => show win0_0.index t (1 : Fin 2) * 4096 + 1 * (y 1).val = (k 1).val; rw [e1, hk1]; omega

/-- Block t of the target scores. -/
theorem iblk1_apply (c : Dev nD) (t : Fin cfg0.N) (y : S256x50.Idx) (k : S512x50.Idx)
    (hk0 : (k 0).val = 256 * t.val + (y 0).val) (hk1 : (k 1).val = (y 1).val) :
    (iblk m c 1 t : Vec Ideal S256x50 .f32) y = (V m c main_v3 : S512x50.Idx → EReal) k := by
  obtain ⟨-, -, e0, e1, -⟩ := idx_facts t
  unfold iblk
  rw [View.read_apply]
  show (V m c main_v3 : S512x50.Idx → EReal) _ = (V m c main_v3 : S512x50.Idx → EReal) k
  refine congrArg (V m c main_v3 : S512x50.Idx → EReal) (funext fun a => Fin.ext ?_)
  match a with
  | ⟨0, _⟩ => show win0_1.index t (0 : Fin 2) * 256 + 1 * (y 0).val = (k 0).val; rw [e0, hk0]; omega
  | ⟨1, _⟩ => show win0_1.index t (1 : Fin 2) * 50 + 1 * (y 1).val = (k 1).val; rw [e1, hk1]; omega

/-- Block t of the validity array. -/
theorem iblk2_apply (c : Dev nD) (t : Fin cfg0.N) (y : S256x50.Idx) (k : S512x50.Idx)
    (hk0 : (k 0).val = 256 * t.val + (y 0).val) (hk1 : (k 1).val = (y 1).val) :
    (iblk m c 2 t : Vec Ideal S256x50 .f32) y = (V m c main_v4 : S512x50.Idx → EReal) k := by
  obtain ⟨-, -, -, -, e0, e1, -⟩ := idx_facts t
  unfold iblk
  rw [View.read_apply]
  show (V m c main_v4 : S512x50.Idx → EReal) _ = (V m c main_v4 : S512x50.Idx → EReal) k
  refine congrArg (V m c main_v4 : S512x50.Idx → EReal) (funext fun a => Fin.ext ?_)
  match a with
  | ⟨0, _⟩ => show win0_2.index t (0 : Fin 2) * 256 + 1 * (y 0).val = (k 0).val; rw [e0, hk0]; omega
  | ⟨1, _⟩ => show win0_2.index t (1 : Fin 2) * 50 + 1 * (y 1).val = (k 1).val; rw [e1, hk1]; omega

/-- The result array: at (b, p, q) the sum over the rows of block b of the row totals. -/
def tileArray (X : S512x4096.Idx → EReal) (T W : S512x50.Idx → EReal) : S2x8x128.Idx → EReal := fun i =>
  ∑ r : Fin 256, Margin.rowK oneW zeroW (fun c : Fin 4096 => X (ix2 (Margin.row (i 0) r) c))
    (fun k : Fin 50 => T (ix2 (Margin.row (i 0) r) k)) (fun k : Fin 50 => W (ix2 (Margin.row (i 0) r) k))

/-- What point t writes back is block t of `tileArray` of the arrays the region finds. -/
theorem flushed_eq (c : Dev nD) (t : Fin cfg0.N) :
    (dats m 0 c).flushed 3 t
      = ((cfg0.win 3).blk t).view.read (Elt Ideal) (tileArray (V m c main_arg0) (V m c main_v3) (V m c main_v4)) := by
  show (cfg0.win 3).cut (grid0.coords t) ((dats m 0 c).after 3 t) = _
  rw [after0_3, out_eq]
  rw [View.canon_unit_zero hz3]
  simp only [View.ld_unit_zero (S := S256x4096) hz2, View.ld_unit_zero (S := S256x50) hz2]
  funext j
  show k0_pay1 (runColumn (iblk m c 0 t) (k0_pay2 (iblk m c 2 t)) (k0_pay3 (iblk m c 1 t)) 50 (Nat.le_refl 50)) j
    = tileArray (V m c main_arg0) (V m c main_v3) (V m c main_v4) (((cfg0.win 3).blk t).view.emb j)
  refine (block_apply (iblk m c 0 t) (iblk m c 1 t) (iblk m c 2 t) j).trans ?_
  obtain ⟨-, -, -, -, -, -, e0, -, -⟩ := idx_facts t
  have hb : ((((cfg0.win 3).blk t).view.emb j) 0).val = t.val := by
    show win0_3.index t (0 : Fin 3) * 1 + 1 * (j 0).val = t.val
    have hj : (j 0).val < 1 := (j 0).isLt
    rw [e0]; omega
  have hrow : ∀ r : Fin 256, (Margin.row ((((cfg0.win 3).blk t).view.emb j) 0) r).val = 256 * t.val + r.val := fun r => by
    show 256 * ((((cfg0.win 3).blk t).view.emb j) 0).val + r.val = _
    rw [hb]
  unfold tileArray
  refine Finset.sum_congr rfl fun r _ => ?_
  have a0 : (fun q : Fin 4096 => (iblk m c 0 t : Vec Ideal S256x4096 .f32) (ix2 r q))
      = fun q : Fin 4096 => (V m c main_arg0 : S512x4096.Idx → EReal) (ix2 (Margin.row ((((cfg0.win 3).blk t).view.emb j) 0) r) q) :=
    funext fun q => iblk0_apply m c t (ix2 r q) (ix2 (Margin.row ((((cfg0.win 3).blk t).view.emb j) 0) r) q) (hrow r) rfl
  have a1 : (fun k : Fin 50 => (iblk m c 1 t : Vec Ideal S256x50 .f32) (ix2 r k))
      = fun k : Fin 50 => (V m c main_v3 : S512x50.Idx → EReal) (ix2 (Margin.row ((((cfg0.win 3).blk t).view.emb j) 0) r) k) :=
    funext fun k => iblk1_apply m c t (ix2 r k) (ix2 (Margin.row ((((cfg0.win 3).blk t).view.emb j) 0) r) k) (hrow r) rfl
  have a2 : (fun k : Fin 50 => (iblk m c 2 t : Vec Ideal S256x50 .f32) (ix2 r k))
      = fun k : Fin 50 => (V m c main_v4 : S512x50.Idx → EReal) (ix2 (Margin.row ((((cfg0.win 3).blk t).view.emb j) 0) r) k) :=
    funext fun k => iblk2_apply m c t (ix2 r k) (ix2 (Margin.row ((((cfg0.win 3).blk t).view.emb j) 0) r) k) (hrow r) rfl
  rw [a0, a1, a2]

/-- An index of the result array is in point t's block iff each coordinate is in the block's range on its axis. -/
theorem mem_blk3 (t : Fin cfg0.N) (i : S2x8x128.Idx) :
    i ∈ ((cfg0.win 3).blk t).view.set
      ↔ ∀ a : Fin 3, win0_3.index t a * S1x8x128.size a ≤ (i a).val ∧ (i a).val < win0_3.index t a * S1x8x128.size a + S1x8x128.size a := by
  show i ∈ ((View.whole main_v5).slice (win0_3.rect t)).set ↔ _
  rw [View.set_slice_whole, Rect.mem_set_unit]
  exact Iff.rfl

/-- Tile b of the result array is point b's block: the two blocks cover the array. -/
theorem cover3 (i : S2x8x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  obtain ⟨t, ht⟩ : ∃ t : Fin cfg0.N, t.val = (i 0).val := ⟨⟨(i 0).val, by rw [show cfg0.N = 2 from N_0]; exact h0⟩, rfl⟩
  refine ⟨t, flush0_3 t, ?_⟩
  rw [mem_blk3]
  obtain ⟨-, -, -, -, -, -, e0, e1, e2⟩ := idx_facts t
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 8 ≤ (i 1).val ∧ (i 1).val < win0_3.index t (1 : Fin 3) * 8 + 8
    rw [e1]; omega
  | ⟨2, _⟩ =>
    show win0_3.index t (2 : Fin 3) * 128 ≤ (i 2).val ∧ (i 2).val < win0_3.index t (2 : Fin 3) * 128 + 128
    rw [e2]; omega

/-- The result array after the region. -/
theorem final3 (c : Dev nD) :
    (dats m 0 c).arrAt 3 cfg0.N = tileArray (V m c main_arg0) (V m c main_v3) (V m c main_v4) :=
  (dats m 0 c).arrAt_eq_of_cover 3 (tileArray (V m c main_arg0) (V m c main_v3) (V m c main_v4)) (fun t _ => flushed_eq m c t) cover3

/-- The host's last lines on the result array. -/
theorem tail_eq (c : Dev nD) :
    Pipeline.afterTail₀ cfgs (dats m) 0 (V0 m) [hostOps1] c main_v8
      = Host.divf (Host.divf (Host.reduceAdd (tileArray (V m c main_arg0) (V m c main_v3) (V m c main_v4)) (constant (F := Ideal) S_ .f32 0x00000000#32) reducesTo_S2x8x128_S_d0_1_2 h_S_) (constant (F := Ideal) S_ .f32 0x44800000#32)) (constant (F := Ideal) S_ .f32 0x45800000#32) := by
  unfold Pipeline.afterTail₀
  show StableHlo.after hostOps1 _ (Proc.devRef .tc main_v8) = _
  after_results
  exact congrArg (fun A => Host.divf (Host.divf (Host.reduceAdd A (constant (F := Ideal) S_ .f32 0x00000000#32) reducesTo_S2x8x128_S_d0_1_2 h_S_) (constant (F := Ideal) S_ .f32 0x44800000#32)) (constant (F := Ideal) S_ .f32 0x45800000#32))
    ((Pipeline.withArrays_arr spec0 launch0.win.arr_inj c (V0 m c) (fun w => (dats m 0 c).arrAt w cfg0.N) 3).trans (final3 m c))

/-- THE KERNEL'S RUN, read: every weakly fair execution ends with the result at the host's last lines applied to the
    result array (the block totals spread over their tiles), and the arguments as launched. -/
theorem run : θ_run defs (onTc (τ := τ) (main (F := Ideal))) ⟨m, fun _ => 0, ρ⟩ fun r => ∀ c : Dev nD,
      r.2.mem ((c.tc : Thread nD τ).loc main_v8)
        = Host.divf (Host.divf (Host.reduceAdd (tileArray (V m c main_arg0) (V m c main_v3) (V m c main_v4)) (constant (F := Ideal) S_ .f32 0x00000000#32) reducesTo_S2x8x128_S_d0_1_2 h_S_) (constant (F := Ideal) S_ .f32 0x44800000#32)) (constant (F := Ideal) S_ .f32 0x45800000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

/-- The host's last lines read at the result's one index: the result array summed from the zero pattern, divided by
    the pattern of 1024 and by the pattern of 4096. -/
theorem result_apply (A : S2x8x128.Idx → EReal) (i : S_.Idx) :
    Host.divf (Host.divf (Host.reduceAdd (F := Ideal) (φ := .f32) A (constant (F := Ideal) S_ .f32 0x00000000#32) reducesTo_S2x8x128_S_d0_1_2 h_S_)
        (constant (F := Ideal) S_ .f32 0x44800000#32)) (constant (F := Ideal) S_ .f32 0x45800000#32) i
      = Ideal.div (Ideal.div (Ideal.ofBits .f32 0x00000000#32 + ∑ j : S2x8x128.Idx, A j) (Ideal.ofBits .f32 0x44800000#32))
          (Ideal.ofBits .f32 0x45800000#32) := by
  show Ideal.div (Ideal.div (Host.reduceAdd (F := Ideal) (φ := .f32) A (constant (F := Ideal) S_ .f32 0x00000000#32) reducesTo_S2x8x128_S_d0_1_2 h_S_ i)
      (Ideal.ofBits .f32 0x44800000#32)) (Ideal.ofBits .f32 0x45800000#32) = _
  refine congrArg (fun s => Ideal.div (Ideal.div s (Ideal.ofBits .f32 0x44800000#32)) (Ideal.ofBits .f32 0x45800000#32)) ?_
  simp only [Host.reduceAdd, Ideal.hostReduceAdd_def]
  exact Ideal.hostReduceAdd_total reducesTo_S2x8x128_S_d0_1_2 (fun b => b.elim0) A _ i

end Cert.KernelIdeal.Hand

end
-- ==== Proof.MarginInputs.lean ====
/-
  What the region is handed besides the scores.

  Before the kernel is launched the host computes the valid labels (target > −1), the clamped indices, the scores
  gathered at them (an out-of-range index reading the not-a-number pattern) and the validity bits as numbers. The
  reference's first lines are the same operations: the arrays of target scores and of validity bits the region finds
  are the reference's own.
-/
import proofs.«170645_j73014444032082_2_alg».proof.Proof.Gen.KernelIdeal.Frame
import proofs.«170645_j73014444032082_2_alg».proof.Proof.RefRead
import Idealize.ShloMosaic.Lib.StableHlo.Run
import Idealize.ShloMosaic.Lib.Tactic

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ)

set_option maxRecDepth 65536 in
set_option maxHeartbeats 2000000 in
/-- The array of target scores the region finds is the reference's. -/
theorem V_targets (c : Dev nD) :
    (V m c main_v3 : S512x50.Idx → EReal)
      = Cert.ReferenceIdeal.ReadP.val_main_v3 (F := Ideal) (m ((c.tc : Thread nD τ).loc main_arg0)) (m ((c.tc : Thread nD τ).loc main_arg1)) := by
  dsimp only [V, V0]
  simp only [hostOps0, hostOps0_1, hostOps0_2, hostOps0_3, List.flatten_cons, List.flatten_nil, List.append_nil, List.cons_append,
    List.nil_append]
  after_results_simp
  rfl

set_option maxRecDepth 65536 in
set_option maxHeartbeats 2000000 in
/-- The validity array the region finds is the reference's validity bits read as numbers. -/
theorem V_valid (c : Dev nD) :
    (V m c main_v4 : S512x50.Idx → EReal)
      = uitofp (F := Ideal) .f32 (Cert.ReferenceIdeal.ReadP.val_main_v1 (F := Ideal) (m ((c.tc : Thread nD τ).loc main_arg1))) := by
  dsimp only [V, V0]
  simp only [hostOps0, hostOps0_1, hostOps0_2, hostOps0_3, List.flatten_cons, List.flatten_nil, List.append_nil, List.cons_append,
    List.nil_append]
  after_results_simp
  rfl

end Cert.KernelIdeal.Hand

end
-- ==== Proof.MarginReference.lean ====
/-
  The reference read as a value.

  The reference spreads the target scores and the scores over [512, 50, 4096], forms 1 − (t − x), clips at zero, sums
  over the classes from a zero, subtracts 1, keeps the label's total where the label is valid and a zero elsewhere,
  sums over rows and labels from a zero and divides by 4096. Read at its one index this is the second arrangement of
  MarginLaw.lean over the target scores and validity bits the reference's own first lines compute.
-/
import proofs.«170645_j73014444032082_2_alg».proof.Proof.RefRead
import proofs.«170645_j73014444032082_2_alg».proof.Proof.MarginLaw

noncomputable section

namespace Cert.ReferenceIdeal.Hand

open Idealize.ShloMosaic Idealize.ShloMosaic.ValueIdx Idealize.SL.Sem Cert.ReferenceIdeal Cert.ReferenceIdeal.ReadP

/-- The label an entry of the [512, 50, 4096] arrays belongs to, and the score it reads. -/
theorem idx_label (i : S512x50.Idx) (k : Fin 4096) : idx_main_v4 (idx_main_v6 (idx_main_v12 i k)) = i :=
  funext fun a => Fin.ext (by
    match a with
    | ⟨0, _⟩ => rfl
    | ⟨1, _⟩ => rfl)
theorem idx_score (i : S512x50.Idx) (k : Fin 4096) : idx_main_v5 (idx_main_v7 (idx_main_v12 i k)) = ix2 (i 0) k :=
  funext fun a => Fin.ext (by
    match a with
    | ⟨0, _⟩ => rfl
    | ⟨1, _⟩ => rfl)

/-- One label's total, less one: the second arrangement's hinge total of the label's target score over its row. -/
theorem label_apply (x0 : FVec Ideal S512x4096 .f32) (x1 : IVec S512x50 32) (i : S512x50.Idx) :
    val_main_v14 (F := Ideal) x0 x1 i
      = Margin.hingeR (Ideal.ofBits .f32 0x3F800000#32) (Ideal.ofBits .f32 0x00000000#32) (val_main_v3 (F := Ideal) x0 x1 i)
          (fun j : Fin 4096 => x0 (ix2 (i 0) j)) := by
  rw [val_main_v14_apply, val_main_v12_apply, val_main_v13_apply, val_main_cst_2_apply, val_main_cst_1_apply]
  unfold Margin.hingeR
  refine congrArg (fun s => Ideal.ofBits .f32 0x00000000#32 + s - Ideal.ofBits .f32 0x3F800000#32) (Finset.sum_congr rfl fun k _ => ?_)
  rw [val_main_v11_apply, val_main_v10_apply, val_main_v9_apply, val_main_cst_apply, val_main_v8_apply, val_main_v6_apply,
    val_main_v4_apply, val_main_v7_apply, val_main_v5_apply, val_main_call2_v0_apply, val_main_call2_cst_apply, idx_label, idx_score]
  rfl

/-- THE REFERENCE'S VALUE at its one index. -/
theorem result_apply (x0 : FVec Ideal S512x4096 .f32) (x1 : IVec S512x50 32) (i : S_.Idx) :
    val_main_v17 (F := Ideal) x0 x1 i
      = Ideal.div (Ideal.ofBits .f32 0x00000000#32 + ∑ j : S512x50.Idx,
          Scalar.select (val_main_v1 (F := Ideal) x1 j)
            (Margin.hingeR (Ideal.ofBits .f32 0x3F800000#32) (Ideal.ofBits .f32 0x00000000#32) (val_main_v3 (F := Ideal) x0 x1 j)
              (fun c : Fin 4096 => x0 (ix2 (j 0) c)))
            (Ideal.ofBits .f32 0x00000000#32))
          (Ideal.ofBits .f32 0x45800000#32) := by
  rw [val_main_v17_apply, val_main_v16_apply, val_main_cst_5_apply, val_main_cst_4_apply]
  refine congrArg (fun s => Ideal.div (Ideal.ofBits .f32 0x00000000#32 + s) (Ideal.ofBits .f32 0x45800000#32)) (Finset.sum_congr rfl fun j _ => ?_)
  rw [val_main_v15_apply, label_apply, val_main_call3_v1_apply, val_main_call3_v0_apply, val_main_cst_3_apply]
  rfl

end Cert.ReferenceIdeal.Hand

end
-- ==== Proof.MarginFinite.lean ====
/-
  The precondition read back: every score is a real number.

  The precondition is  all(|x| < +∞)  over the array of scores. On the extended reals |x| = max x (−x) is +∞ at both
  infinities, so an entry strictly below +∞ in absolute value is neither: it is a real number.
-/
import proofs.«170645_j73014444032082_2_alg».proof.Pre_finite_inputs
import proofs.«170645_j73014444032082_2_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Hand

open Idealize.ShloMosaic Idealize.ShloMosaic.ValueIdx Cert.Pre_finite_inputs

/-- The scalar shape has one index. -/
instance : Subsingleton S_.Idx := ⟨fun _ _ => funext fun d => d.elim0⟩

/-- An extended real whose absolute value compares strictly below the pattern of +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => exact absurd h (by decide)
  | top => exact absurd h (by decide)
  | coe r => exact ⟨r, rfl⟩

/-- Under the precondition every entry of the array of scores is a real number. -/
theorem scores_real (x : FVec Ideal S512x4096 .f32) (tg : IVec S512x50 32)
    (h : Cert.Pre_finite_inputs.fn (F := Ideal) x tg = fun _ => 1#1) (i : S512x4096.Idx) : ∃ r : ℝ, x i = (r : EReal) := by
  have h0 := congrFun h ix0
  dsimp only [Cert.Pre_finite_inputs.fn] at h0
  have hi := Host.reduce_andi_all _ _ _ _ ix0 h0 i
  exact real_of_abs_lt (x i) hi

end Cert.Pre_finite_inputs.Hand

end
-- ==== Proof.lean ====
/-
  The multi-label margin loss: a blocked kernel against the label-by-label reference, at the ideal values.

  Both programs compute, from scores x [512, 4096] and integer targets [512, 50], the same validity bits (target > −1)
  and the same target scores t (x gathered at the clamped targets) by the same first host lines. The kernel then hands
  blocks of 256 rows to its two grid points; a point adds, label after label, validity · (Σ_j max((1 − t) + x_j, 0) − 1)
  onto a zero column, sums the column over its rows and writes that block total over an 8 × 128 tile; the host sums the
  two tiles, divides by 1024 and by 4096. The reference forms 1 − (t − x_j), selects the label totals by the validity
  bit, sums them all and divides by 4096.

  On the extended reals the two agree because the scores are real (the precondition: −(t − x) = −t + x then holds for
  every t, so nothing is asked of the target scores, which can be −∞ at an out-of-range target), because masking by 0 / 1
  is the selection, because finite sums may be taken in any order, and because 1024 copies of a number added and
  divided by 1024 give the number back, at the infinities too (MarginLaw.lean). The kernel's body is read as a
  recurrence over the labels (MarginBody.lean, MarginBodyRead.lean), its blocks as the result array and the host's last
  lines on it (MarginKernelValue.lean), the arrays it is handed as the reference's own (MarginInputs.lean), the
  reference index by index (MarginReference.lean), the precondition as "every score is real" (MarginFinite.lean).
  The three frames are the generated ones; no operation was rewritten when the idealized kernel was printed, so `preserves`
  is trivial.
-/
import proofs.«170645_j73014444032082_2_alg».proof.Defs
import proofs.«170645_j73014444032082_2_alg».proof.Proof.Gen.Kernel
import proofs.«170645_j73014444032082_2_alg».proof.Proof.Gen.Kernel.Skeleton
import proofs.«170645_j73014444032082_2_alg».proof.Proof.Gen.Kernel.Launch
import proofs.«170645_j73014444032082_2_alg».proof.Proof.Gen.Kernel.Points
import proofs.«170645_j73014444032082_2_alg».proof.Proof.Gen.Kernel.Frame
import proofs.«170645_j73014444032082_2_alg».proof.Proof.Gen.KernelIdeal
import proofs.«170645_j73014444032082_2_alg».proof.Proof.Gen.KernelIdeal.Skeleton
import proofs.«170645_j73014444032082_2_alg».proof.Proof.Gen.KernelIdeal.Launch
import proofs.«170645_j73014444032082_2_alg».proof.Proof.Gen.KernelIdeal.Points
import proofs.«170645_j73014444032082_2_alg».proof.Proof.Gen.KernelIdeal.Frame
import proofs.«170645_j73014444032082_2_alg».proof.Proof.Gen.ReferenceIdeal
import proofs.«170645_j73014444032082_2_alg».proof.Proof.Gen.Pre_finite_inputs
import proofs.«170645_j73014444032082_2_alg».proof.Proof.MarginKernelValue
import proofs.«170645_j73014444032082_2_alg».proof.Proof.MarginInputs
import proofs.«170645_j73014444032082_2_alg».proof.Proof.MarginReference
import proofs.«170645_j73014444032082_2_alg».proof.Proof.MarginFinite
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

open Cert.KernelIdeal Cert.KernelIdeal.Gen Cert.KernelIdeal.Hand in
/-- Under the precondition the reference's value of the launched arguments is the kernel program's. -/
theorem value_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.ReadP.val_main_v17 (F := Ideal) (m ((c.tc : Thread nD τ).loc main_arg0)) (m ((c.tc : Thread nD τ).loc main_arg1))
      = Host.divf (Host.divf (Host.reduceAdd (tileArray (V m c main_arg0) (V m c main_v3) (V m c main_v4)) (constant (F := Ideal) S_ .f32 0x00000000#32) reducesTo_S2x8x128_S_d0_1_2 h_S_) (constant (F := Ideal) S_ .f32 0x44800000#32)) (constant (F := Ideal) S_ .f32 0x45800000#32) := by
  funext i
  rw [Cert.ReferenceIdeal.Hand.result_apply, Cert.KernelIdeal.Hand.result_apply, V_main_arg0, V_targets, V_valid]
  have hX := Cert.Pre_finite_inputs.Hand.scores_real _ _ (hpre c)
  unfold tileArray
  rw [show zeroW = 0 from Ideal.ofBits_zero_f32, Ideal.ofBits_zero_f32, Margin.ofBits_1024]
  exact (Margin.loss_eq_arrays oneW (Ideal.ofBits .f32 0x45800000#32) _ hX _ _).symm

/-- The two idealized programs, run from memories agreeing on the arguments, end with one result. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, (hagree c).1, (hagree c).2]
  exact value_eq m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
